-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .f32 = 32 ∨ (Rect.block (s := S8192x1024) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S0 : Shape := ⟨1, ![0]⟩
abbrev S8192x2048 : Shape := ⟨2, ![8192, 2048]⟩
abbrev S1024x2048 : Shape := ⟨2, ![1024, 2048]⟩
abbrev S_ : Shape := ⟨0, ![]⟩
abbrev S2048x1024 : Shape := ⟨2, ![2048, 1024]⟩
abbrev S1x1024 : Shape := ⟨2, ![1, 1024]⟩
abbrev S1 : Shape := ⟨1, ![1]⟩
abbrev S256x2048 : Shape := ⟨2, ![256, 2048]⟩
abbrev S256x1024 : Shape := ⟨2, ![256, 1024]⟩

abbrev nBuf : Space → Nat
  | .hbm => 22
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S0, .i32⟩
  | .hbm, ⟨6, _⟩ => ⟨S0, .i32⟩
  | .hbm, ⟨7, _⟩ => ⟨S8192x2048, .f32⟩
  | .hbm, ⟨8, _⟩ => ⟨S1024x2048, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S1x1024, .f32⟩
  | .hbm, ⟨15, _⟩ => ⟨S_, .i32⟩
  | .hbm, ⟨16, _⟩ => ⟨S1, .i32⟩
  | .hbm, ⟨17, _⟩ => ⟨S1x1024, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S2048x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  hz_S0 : S0.numel = 0
  concatenates_S8192x1024_S8192x1024_S8192x2048_d1 : Shape.Concatenates [S8192x1024, S8192x1024] S8192x2048 1
  concatenates_S1024x1024_S1024x1024_S1024x2048_d1 : Shape.Concatenates [S1024x1024, S1024x1024] S1024x2048 1
  bcast_S_S2048x1024 : S_.BroadcastsInDim S2048x1024 (![] : Fin 0 → Fin S2048x1024.rank)
  transposes_S1024x2048_S2048x1024_1_0 : S1024x2048.Transposes [1, 0] S2048x1024
  bcast_S_S1x1024 : S_.BroadcastsInDim S1x1024 (![] : Fin 0 → Fin S1x1024.rank)
  bcast_S_S1 : S_.BroadcastsInDim S1 (![] : Fin 0 → Fin S1.rank)
  bcast_S_S8192x2048 : S_.BroadcastsInDim S8192x2048 (![] : Fin 0 → Fin S8192x2048.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  scatter_S2048x1024_S0_S2048x1024_01_n_n_0_wf : ScatterDims.WF S2048x1024 S0 S2048x1024 [0, 1] [] [] 0
  scatter_S1x1024_S1_S1024_0_0_0_0_wf : ScatterDims.WF S1x1024 S1 S1024 [0] [0] [0] 0
  scatter_S8192x2048_S0_S8192x2048_01_n_n_0_wf : ScatterDims.WF S8192x2048 S0 S8192x2048 [0, 1] [] [] 0
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .f32 = 32 ∨ (Rect.block (s := S2048x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)

variable [Facts₀]

def scatter_S2048x1024_S0_S2048x1024_01_n_n_0 : ScatterDims S2048x1024 S0 S2048x1024 where
  updateWindowDims := [0, 1]
  insertedWindowDims := []
  scatterDimsToOperandDims := []
  indexVectorDim := 0
  wf := scatter_S2048x1024_S0_S2048x1024_01_n_n_0_wf
def scatter_S1x1024_S1_S1024_0_0_0_0 : ScatterDims S1x1024 S1 S1024 where
  updateWindowDims := [0]
  insertedWindowDims := [0]
  scatterDimsToOperandDims := [0]
  indexVectorDim := 0
  wf := scatter_S1x1024_S1_S1024_0_0_0_0_wf
def scatter_S8192x2048_S0_S8192x2048_01_n_n_0 : ScatterDims S8192x2048 S0 S8192x2048 where
  updateWindowDims := [0, 1]
  insertedWindowDims := []
  scatterDimsToOperandDims := []
  indexVectorDim := 0
  wf := scatter_S8192x2048_S0_S8192x2048_01_n_n_0_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v9) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibRowDot.lean ====
/-
  A product of one matrix with the transpose of another, read at one entry.

  The matrix unit's contraction in which BOTH operands contract their last axis (left contracting axis 1, right
  contracting axis 1, no batch axis: `x @ w.T` with `w` kept in its (columns-of-the-result, contraction) layout),
  accumulated into the zero splat, is at the ideal values the sum over the contraction coordinate k of
  l (i, k) · r (j, k): entry (i, j) is the dot product of row i of the left operand with row j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.RowDot

open Idealize.ShloMosaic Idealize.ShloMosaic.ValueIdx

/-- Entry (i, j) of an M×K by N×K `tpu.matmul` contracting both last axes into the zero accumulator, at the ideal
    values: the dot product of the left operand's row i with the right operand's row j. -/
theorem matmul_zero_apply {M K N : Nat} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (i : Fin M) (j : Fin N) :
    matmul D prec l r (constant ⟨2, ![M, N]⟩ .f32 0x00000000#32) (ix2 i j)
      = ∑ k : Fin K, l (ix2 i k) * r (ix2 j k) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 j k :=
    funext fun a => Fin.ext (by
      match a with
      | ⟨0, _⟩ =>
        unfold DotDims.rhsIdx
        rw [dif_neg (by exact List.not_mem_nil), dif_pos (by exact List.mem_singleton.mpr rfl)]
        rfl
      | ⟨1, _⟩ => exact (DotDims.rhsIdx_val_of_single _ rfl _ _).trans hk)
  rw [el, er]

end Idealize.ShloMosaic.RowDot

end
-- ==== Proof.KernelBlock.lean ====
/-
  What the two-product body stores at one entry of its output block, at the ideal values.

  The body reads a block of rows of y and of z (1024 rows each), all of Wy and Wz and the bias row, and stores
  (y·Wyᵀ + z·Wzᵀ) + bias.  The narrowing of the operands to bf16 is the identity on extended reals; each
  product contracts the LAST axis of both operands, so its entry (p, q) is the dot product of row p of the left
  operand with row q of the weight; the bias row is broadcast down the rows.
-/
import proofs.«179190_g2000404403435024_pallasbulk_1094_12_alg».proof.Proof.Gen.KernelIdeal.Skeleton
import proofs.«179190_g2000404403435024_pallasbulk_1094_12_alg».proof.Proof.LibRowDot
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx

/-- Entry (p, q) of the stored block: row p of the y block against row q of Wy, plus row p of the z block against
    row q of Wz, plus the bias at q. -/
theorem pay_apply (x0 x1 x2 x3 : Vec Ideal S1024x1024 .f32) (x4 : Vec Ideal S1x1024 .f32) (p q : Fin 1024) :
    k0_pay1 (F := Ideal) x0 x1 x2 x3 x4 (ix2 p q)
      = (∑ k : Fin 1024, x0 (ix2 p k) * x2 (ix2 q k) + ∑ k : Fin 1024, x1 (ix2 p k) * x3 (ix2 q k))
        + x4 (ix2 (0 : Fin 1) q) := by
  unfold k0_pay1
  refine (addf_apply _ _ _).trans ?_
  refine congrArg₂ (· + ·) ((addf_apply _ _ _).trans (congrArg₂ (· + ·) ?_ ?_)) ?_
  · exact RowDot.matmul_zero_apply dot_S1024x1024_S1024x1024_S1024x1024_1_1_0_0_n_n rfl rfl rfl rfl rfl rfl none _ _ p q
  · exact RowDot.matmul_zero_apply dot_S1024x1024_S1024x1024_S1024x1024_1_1_0_0_n_n rfl rfl rfl rfl rfl rfl none _ _ p q
  · refine (broadcastTo_apply _ _ (ix2 p q) (ix2 (0 : Fin 1) q) (fun a => ?_)).trans ?_
    · match a with
      | ⟨0, _⟩ => rfl
      | ⟨1, _⟩ => rfl
    · rw [shapeCast_self]

end Cert.KernelIdeal.Hand

end
-- ==== Proof.Spec.lean ====
/-
  The function both programs compute, and the one law that joins their two arrangements of it.

  Entry (i, j) of the result is

      (Σ_{k<1024} y(i,k)·Wy(j,k)  +  Σ_{k<1024} z(i,k)·Wz(j,k))  +  bias(j)

  over the extended reals.  One program forms the two row-by-row dot products separately and adds them; the other
  lays [y | z] and [Wy | Wz] side by side along the contraction axis and forms ONE dot product of length 2048.
  A sum over 2048 consecutive coordinates is the sum over the first 1024 plus the sum over the last 1024: this
  needs only that addition of extended reals is associative and commutative, so no finiteness is used.
-/
import Idealize.ShloMosaic.Lib.ValueIdx

noncomputable section

open scoped BigOperators

namespace Cert.TwoLinear

open Idealize.ShloMosaic Idealize.ShloMosaic.ValueIdx

/-- `y·Wyᵀ + z·Wzᵀ + bias`, entry by entry, the two dot products added first and the bias last. -/
def twoLinear (y z : FVec Ideal ⟨2, ![8192, 1024]⟩ .f32) (wy wz : FVec Ideal ⟨2, ![1024, 1024]⟩ .f32)
    (b : FVec Ideal ⟨1, ![1024]⟩ .f32) : FVec Ideal ⟨2, ![8192, 1024]⟩ .f32 := fun i =>
  (∑ k : Fin 1024, y (ix2 (i 0) k) * wy (ix2 (i 1) k) + ∑ k : Fin 1024, z (ix2 (i 0) k) * wz (ix2 (i 1) k))
    + b (ix1 (i 1))

/-- The low half of the 2048 contraction coordinates. -/
abbrev lo (k : Fin 1024) : Fin 2048 := ⟨k.val, by have := k.isLt; omega⟩
/-- The high half of the 2048 contraction coordinates. -/
abbrev hi (k : Fin 1024) : Fin 2048 := ⟨k.val + 1024, by have := k.isLt; omega⟩

/-- A sum over 2048 coordinates is the sum over its low half plus the sum over its high half. -/
theorem sum_halves {M : Type*} [AddCommMonoid M] (f : Fin 2048 → M) :
    ∑ k : Fin 2048, f k = ∑ k : Fin 1024, f (lo k) + ∑ k : Fin 1024, f (hi k) := by
  have h := Fin.sum_univ_add (a := 1024) (b := 1024) (fun k : Fin (1024 + 1024) => f k)
  refine h.trans ?_
  congr 1

end Cert.TwoLinear

end
-- ==== Proof.KernelArray.lean ====
/-
  The two-product program's result array, as one function of its argument arrays.

  The grid has 8 points; point t reads rows 1024·t … 1024·t + 1023 of y and of z, the whole of Wy and Wz and the
  bias row (the bias vector re-laid as a 1×1024 array before the launch), and writes rows 1024·t … 1024·t + 1023 of
  the result.  Entry (p, q) of what point t writes is entry (1024·t + p, q) of y·Wyᵀ + z·Wzᵀ + bias, the 8 row blocks
  tile the result, so the result array is that function everywhere.
-/
import proofs.«179190_g2000404403435024_pallasbulk_1094_12_alg».proof.Proof.Gen.KernelIdeal.Value
import proofs.«179190_g2000404403435024_pallasbulk_1094_12_alg».proof.Proof.KernelBlock
import proofs.«179190_g2000404403435024_pallasbulk_1094_12_alg».proof.Proof.Spec
import Idealize.ShloMosaic.Lib.Pipeline.Value
import Idealize.ShloMosaic.Lib.StableHlo.Run

noncomputable section

open scoped BigOperators

namespace Cert.KernelIdeal.Hand

open Cert.KernelIdeal Cert.KernelIdeal.Gen Cert.KernelIdeal.Value Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result: `y·Wyᵀ + z·Wzᵀ + bias` of the argument arrays as launched. -/
abbrev result (c : Dev nD) : Vec Ideal S8192x1024 .f32 :=
  Cert.TwoLinear.twoLinear (m ((c : Thread nD τ).loc main_arg0)) (m ((c : Thread nD τ).loc main_arg1))
    (m ((c : Thread nD τ).loc main_arg2)) (m ((c : Thread nD τ).loc main_arg3)) (m ((c : Thread nD τ).loc main_arg4))

/-- The printed index maps over the grid: the row-blocked windows (y, z, the result) are at block (t, 0), the
    resident ones (Wy, Wz, the bias row) at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, k) of the y block at point t is entry (1024·t + p, k) of y. -/
theorem yblk_apply (c : Dev nD) (t : Fin cfg0.N) (p k : Fin 1024) (r : Fin 8192) (hr : r.val = t.val * 1024 + p.val) :
    (iblk m c 0 t : Vec Ideal S1024x1024 .f32) (ix2 p k)
      = (m ((c : Thread nD τ).loc main_arg0) : Vec Ideal S8192x1024 .f32) (ix2 r k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- Entry (p, k) of the z block at point t is entry (1024·t + p, k) of z. -/
theorem zblk_apply (c : Dev nD) (t : Fin cfg0.N) (p k : Fin 1024) (r : Fin 8192) (hr : r.val = t.val * 1024 + p.val) :
    (iblk m c 1 t : Vec Ideal S1024x1024 .f32) (ix2 p k)
      = (m ((c : Thread nD τ).loc main_arg1) : Vec Ideal S8192x1024 .f32) (ix2 r k) := by
  obtain ⟨-, -, e0, e1, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 1024 + 1 * p.val = r.val; rw [e0, hr]; omega
  | ⟨1, _⟩ => show win0_1.index t (1 : Fin 2) * 1024 + 1 * k.val = k.val; rw [e1]; omega

/-- The Wy block at every point is Wy. -/
theorem wyblk_apply (c : Dev nD) (t : Fin cfg0.N) (q k : Fin 1024) :
    (iblk m c 2 t : Vec Ideal S1024x1024 .f32) (ix2 q k)
      = (m ((c : Thread nD τ).loc main_arg2) : Vec Ideal S1024x1024 .f32) (ix2 q k) := by
  obtain ⟨-, -, -, -, e0, e1, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 1024 + 1 * q.val = q.val; rw [e0]; omega
  | ⟨1, _⟩ => show win0_2.index t (1 : Fin 2) * 1024 + 1 * k.val = k.val; rw [e1]; omega

/-- The Wz block at every point is Wz. -/
theorem wzblk_apply (c : Dev nD) (t : Fin cfg0.N) (q k : Fin 1024) :
    (iblk m c 3 t : Vec Ideal S1024x1024 .f32) (ix2 q k)
      = (m ((c : Thread nD τ).loc main_arg3) : Vec Ideal S1024x1024 .f32) (ix2 q k) := by
  obtain ⟨-, -, -, -, -, -, e0, e1, -⟩ := idx_facts t
  unfold iblk
  rw [View.read_apply]
  show V m c main_arg3 _ = m (c.tc.loc main_arg3) _
  rw [V_main_arg3]
  congr 1
  funext a
  apply Fin.ext
  match a with
  | ⟨0, _⟩ => show win0_3.index t (0 : Fin 2) * 1024 + 1 * q.val = q.val; rw [e0]; omega
  | ⟨1, _⟩ => show win0_3.index t (1 : Fin 2) * 1024 + 1 * k.val = k.val; rw [e1]; omega

/-- The bias row the region finds: the bias vector re-laid as one row, so its entry (0, q) is the bias at q. -/
theorem biasrow_apply (c : Dev nD) (q : Fin 1024) :
    (V m c main_v0 : Vec Ideal S1x1024 .f32) (ix2 (0 : Fin 1) q)
      = (m ((c : Thread nD τ).loc main_arg4) : Vec Ideal S1024 .f32) (ix1 q) := by
  have e : (V m c main_v0 : Vec Ideal S1x1024 .f32)
      = shapeCast S1x1024 (m ((c : Thread nD τ).loc main_arg4) : Vec Ideal S1024 .f32) shapeCasts_S1024_S1x1024 := by
    dsimp only [Gen.V, Gen.hostOps0]; after_results; rfl
  rw [e]
  refine shapeCast_apply _ _ (ix2 (0 : Fin 1) q) (ix1 q) ?_
  rw [Shape.rowMajor_val_one, Shape.rowMajor_val_two]
  show q.val = 0 * 1024 + q.val
  omega

/-- The bias block at every point is that row. -/
theorem bblk_apply (c : Dev nD) (t : Fin cfg0.N) (q : Fin 1024) :
    (iblk m c 4 t : Vec Ideal S1x1024 .f32) (ix2 (0 : Fin 1) q)
      = (m ((c : Thread nD τ).loc main_arg4) : Vec Ideal S1024 .f32) (ix1 q) := by
  obtain ⟨-, -, -, -, -, -, -, -, e0, e1, -⟩ := idx_facts t
  refine Eq.trans ?_ (biasrow_apply m c q)
  unfold iblk
  rw [View.read_apply]
  show V m c main_v0 _ = V m c main_v0 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * q.val = q.val; rw [e1]; omega

/-- Entry (p, q) of what the body computes at point t is entry (1024·t + p, q) of the result. -/
theorem point_apply (c : Dev nD) (t : Fin cfg0.N) (p q : Fin 1024) (r : Fin 8192) (hr : r.val = t.val * 1024 + p.val) :
    k0_pay1 (F := Ideal) (iblk m c 0 t) (iblk m c 1 t) (iblk m c 2 t) (iblk m c 3 t) (iblk m c 4 t) (ix2 p q)
      = result m c (ix2 r q) := by
  refine (pay_apply (iblk m c 0 t) (iblk m c 1 t) (iblk m c 2 t) (iblk m c 3 t) (iblk m c 4 t) p q).trans ?_
  unfold result Cert.TwoLinear.twoLinear
  refine congrArg₂ (· + ·) (congrArg₂ (· + ·) (Finset.sum_congr rfl fun k _ => ?_) (Finset.sum_congr rfl fun k _ => ?_)) ?_
  · exact congrArg₂ (· * ·) (yblk_apply m c t p k r hr) (wyblk_apply m c t q k)
  · exact congrArg₂ (· * ·) (zblk_apply m c t p k r hr) (wzblk_apply m c t q k)
  · exact bblk_apply m c t q

/-- What point t writes back is block t of the result. -/
theorem flushed_eq (c : Dev nD) (t : Fin cfg0.N) :
    (dats m 0 c).flushed 5 t = ((cfg0.win 5).blk t).view.read (Elt Ideal) (result m c) := by
  obtain ⟨-, -, -, -, -, -, -, -, -, -, e0, e1⟩ := idx_facts t
  have hN : cfg0.N = 8 := N_0
  rw [flushed5]
  unfold out0_5
  rw [View.canon_unit_zero hz]
  simp only [View.ld_unit_zero (S := S1024x1024) hz, View.ld_unit_zero (S := S1x1024) hz]
  funext j
  have hp : (j 0).val < 1024 := (j 0).isLt
  have hq : (j 1).val < 1024 := (j 1).isLt
  have ht : t.val < 8 := hN ▸ t.isLt
  show k0_pay1 (F := Ideal) (iblk m c 0 t) (iblk m c 1 t) (iblk m c 2 t) (iblk m c 3 t) (iblk m c 4 t) j
    = result m c (((cfg0.win 5).blk t).view.emb j)
  have hj : (j : S1024x1024.Idx) = ix2 (⟨(j 0).val, hp⟩ : Fin 1024) (⟨(j 1).val, hq⟩ : Fin 1024) :=
    funext fun a => by
      match a with
      | ⟨0, _⟩ => rfl
      | ⟨1, _⟩ => rfl
  have he : (((cfg0.win 5).blk t).view.emb j : S8192x1024.Idx)
      = ix2 (⟨t.val * 1024 + (j 0).val, by omega⟩ : Fin 8192) (⟨(j 1).val, hq⟩ : Fin 1024) :=
    funext fun a => Fin.ext (by
      match a with
      | ⟨0, _⟩ => show win0_5.index t (0 : Fin 2) * 1024 + 1 * (j 0).val = t.val * 1024 + (j 0).val; rw [e0]; omega
      | ⟨1, _⟩ => show win0_5.index t (1 : Fin 2) * 1024 + 1 * (j 1).val = (j 1).val; rw [e1]; omega)
  rw [he]
  refine Eq.trans ?_ (point_apply m c t ⟨(j 0).val, hp⟩ ⟨(j 1).val, hq⟩ ⟨t.val * 1024 + (j 0).val, by omega⟩ rfl)
  exact congrArg (k0_pay1 (F := Ideal) (iblk m c 0 t) (iblk m c 1 t) (iblk m c 2 t) (iblk m c 3 t) (iblk m c 4 t)) hj

/-- An index of the result is in point t's block iff its row lies in rows 1024·t … 1024·t + 1023. -/
theorem mem_blk (t : Fin cfg0.N) (i : S8192x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v1).slice (win0_5.rect t)).set ↔ _
  rw [View.set_slice_whole, Rect.mem_set_unit]
  exact Iff.rfl

/-- Every index of the result is in the block of the point its row belongs to. -/
theorem cover (i : S8192x1024.Idx) :
    ∃ t : Fin cfg0.N, (cfg0.win 5).flush t = true ∧ i ∈ ((cfg0.win 5).blk t).view.set := by
  have hN : cfg0.N = 8 := N_0
  have hi0 : (i 0).val < 8192 := (i 0).isLt
  have hi1 : (i 1).val < 1024 := (i 1).isLt
  let t : Fin cfg0.N := ⟨(i 0).val / 1024, by rw [hN]; omega⟩
  obtain ⟨-, -, -, -, -, -, -, -, -, -, e0, e1⟩ := idx_facts t
  have ht : t.val = (i 0).val / 1024 := rfl
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 1024 ≤ (i 1).val ∧ (i 1).val < win0_5.index t (1 : Fin 2) * 1024 + 1024
    rw [e1]; omega

/-- The result array after the run is `y·Wyᵀ + z·Wzᵀ + bias` of the arguments. -/
theorem final (c : Dev nD) : (dats m 0 c).arrAt 5 cfg0.N = result m c :=
  (dats m 0 c).arrAt_eq_of_cover 5 (result m c) (fun t _ => flushed_eq m c t) cover

/-- The run, read: the result array at that function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Hand

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.RefBlock.lean ====
/-
  What the one-product body stores at one entry of its output block, at the ideal values.

  The body reads a block of 256 rows of the packed left operand (256 × 2048), all of the packed, pre-transposed
  weight (2048 × 1024) and the bias row, and stores their plain matrix product plus the bias row broadcast down the
  rows: entry (p, q) is the sum over the 2048 contraction coordinates k of x(p, k)·w(k, q), plus the bias at q.
-/
import proofs.«179190_g2000404403435024_pallasbulk_1094_12_alg».proof.Proof.Gen.ReferenceIdeal.Skeleton
import proofs.«179190_g2000404403435024_pallasbulk_1094_12_alg».proof.Proof.LibPlainMatmul
import Idealize.ShloMosaic.Lib.Pipeline.Value
import Idealize.ShloMosaic.Lib.ValueIdx

noncomputable section

open scoped BigOperators

namespace Cert.ReferenceIdeal.Hand

open Cert.ReferenceIdeal Cert.ReferenceIdeal.Gen Idealize.ShloMosaic Idealize.ShloMosaic.ValueIdx

/-- Entry (p, q) of the stored block: row p of the packed left block against column q of the packed weight, plus
    the bias at q. -/
theorem pay_apply (x0 : Vec Ideal S256x2048 .f32) (x1 : Vec Ideal S2048x1024 .f32) (x2 : Vec Ideal S1x1024 .f32)
    (p : Fin 256) (q : Fin 1024) :
    k0_pay1 (F := Ideal) x0 x1 x2 (ix2 p q)
      = ∑ k : Fin 2048, x0 (ix2 p k) * x1 (ix2 k q) + x2 (ix2 (0 : Fin 1) q) := by
  unfold k0_pay1
  simp only [shapeCast_self]
  refine (addf_apply _ _ _).trans ?_
  refine congrArg₂ (· + ·) ?_ ?_
  · exact PlainMatmul.matmul_zero_apply dot_S256x2048_S2048x1024_S256x1024_1_0_0_1_n_n rfl rfl rfl rfl rfl rfl none _ _ p q
  · refine broadcastTo_apply _ _ (ix2 p q) (ix2 (0 : Fin 1) q) (fun a => ?_)
    match a with
    | ⟨0, _⟩ => rfl
    | ⟨1, _⟩ => rfl

end Cert.ReferenceIdeal.Hand

end
-- ==== Proof.LibScatterSet.lean ====
/-
  An overwriting scatter read at one index.

  The host scatter whose combining function keeps the update (`x.at[...].set(u)`) is a left fold, over the update
  indices in row-major order, of pointwise overwrites: update index `j` lands at the operand index the dimension
  numbers give it (or is dropped).  When every update index lands, and lands at its own place — the landing map
  `e` is injective — the operand index `e j` is written exactly once, by update `j`; every later step of the fold
  leaves it alone.  So the result at `e j` is the update at `j`.
-/
import Idealize.ShloMosaic.PureOps
import Idealize.ShloMosaic.Lib.ValueIdx

namespace Idealize.ShloMosaic.ScatterSet

open Idealize.ShloMosaic

/-- A fold of steps none of which touches index `i` leaves the value at `i`. -/
theorem foldl_apply_of_untouched {ι α β : Type} (step : (ι → α) → β → (ι → α)) (i : ι) :
    ∀ (l : List β) (x : ι → α), (∀ n ∈ l, ∀ r, step r n i = r i) → l.foldl step x i = x i
  | [], _, _ => rfl
  | a :: l, x, h => by
    rw [List.foldl_cons, foldl_apply_of_untouched step i l (step x a) (fun n hn => h n (List.mem_cons_of_mem a hn))]
    exact h a (List.mem_cons_self ..) x

/-- A fold in which step `n₀` writes `v` at index `i` and no later step touches `i` ends with `v` at `i`. -/
theorem foldl_apply_of_last_write {ι α β : Type} (step : (ι → α) → β → (ι → α)) (i : ι) (v : α)
    (l₁ l₂ : List β) (n₀ : β) (x : ι → α) (hw : ∀ r, step r n₀ i = v)
    (hl : ∀ n ∈ l₂, ∀ r, step r n i = r i) : (l₁ ++ n₀ :: l₂).foldl step x i = v := by
  rw [List.foldl_append, List.foldl_cons, foldl_apply_of_untouched step i l₂ _ hl]
  exact hw _

/-- The overwriting scatter at the landing place of update index `j` is the update at `j`, when every update index
    lands (`h`) and no two land at the same place (`he`). -/
theorem scatter_set_apply {α : Type} {s si u : Shape} {w : Nat} (d : ScatterDims s si u) (x : s.Idx → α) (idx : IVec si w)
    (upd : u.Idx → α) (e : u.Idx → s.Idx) (he : Function.Injective e) (h : ∀ j, d.resultIdx? j idx = some (e j))
    (j : u.Idx) : Host.scatter d (fun _ b => b) x idx upd (e j) = upd j := by
  unfold Host.scatter
  obtain ⟨l₁, l₂, hl⟩ := List.append_of_mem (List.mem_finRange (u.rowMajor j))
  have hnd : (l₁ ++ u.rowMajor j :: l₂).Nodup := hl ▸ List.nodup_finRange u.numel
  have hnot : u.rowMajor j ∉ l₂ := by
    have := (List.nodup_append.mp hnd).2.1
    exact (List.nodup_cons.mp this).1
  rw [hl]
  refine foldl_apply_of_last_write _ (e j) (upd j) l₁ l₂ (u.rowMajor j) x (fun r => ?_) (fun n hn r => ?_)
  · simp only [Equiv.symm_apply_apply, h j, if_true]
  · have hne : e (u.rowMajor.symm n) ≠ e j := fun hc => hnot (by
      have := he hc
      rw [← this, Equiv.apply_symm_apply]; exact hn)
    simp only [h (u.rowMajor.symm n)]
    rw [if_neg (Ne.symm hne)]

/-! ## Two landing maps that arise from `x.at[...].set(u)` -/

open Idealize.ShloMosaic.ValueIdx

/-- A rank-2 update with BOTH axes window axes, no inserted axis and no scattered axis (an empty index vector:
    `x.at[:a, :b].set(u)` with `u` of the operand's own shape) lands update index `j` at operand index `j`. -/
theorem resultIdx_whole2 {dm : Fin 2 → Nat} {si : Shape} {w : Nat} (d : ScatterDims ⟨2, dm⟩ si ⟨2, dm⟩)
    (huw : d.updateWindowDims = [0, 1]) (hiw : d.insertedWindowDims = []) (hsd : d.scatterDimsToOperandDims = [])
    (idx : IVec si w) (j : (⟨2, dm⟩ : Shape).Idx) : d.resultIdx? j idx = some j := by
  obtain ⟨uw, iw, sd, iv, wf⟩ := d
  dsimp only at huw hiw hsd
  subst huw hiw hsd
  have hs : ∀ a, ScatterDims.start (⟨[0, 1], [], [], iv, wf⟩ : ScatterDims ⟨2, dm⟩ si ⟨2, dm⟩) j idx a = 0 := fun a => by
    unfold ScatterDims.start; rw [dif_neg (by exact List.not_mem_nil)]
  have hw : ∀ a, ScatterDims.window (⟨[0, 1], [], [], iv, wf⟩ : ScatterDims ⟨2, dm⟩ si ⟨2, dm⟩) j a = (j a).val := fun a => by
    match a with
    | ⟨0, _⟩ => rfl
    | ⟨1, _⟩ => rfl
  unfold ScatterDims.resultIdx?
  rw [dif_pos (fun a => by rw [hs, hw]; have := (j a).isLt; constructor <;> omega)]
  refine congrArg some (funext fun a => Fin.ext ?_)
  simp only [hs, hw]; omega

/-- A rank-1 update written as the one row of a one-row rank-2 operand at scatter index `0`
    (`x.at[0, :n].set(u)`: the update's axis is the window axis, the operand's row axis is inserted and is the
    scattered axis, the one index is zero) lands update index `(q)` at operand index `(0, q)`. -/
theorem resultIdx_row0 {N : Nat} {w : Nat} (d : ScatterDims ⟨2, ![1, N]⟩ ⟨1, ![1]⟩ ⟨1, ![N]⟩)
    (huw : d.updateWindowDims = [0]) (hiw : d.insertedWindowDims = [0]) (hsd : d.scatterDimsToOperandDims = [0])
    (idx : IVec ⟨1, ![1]⟩ w) (hidx : ∀ k, idx k = 0#w) (q : Fin N) :
    d.resultIdx? (ix1 q) idx = some (ix2 (0 : Fin 1) q) := by
  obtain ⟨uw, iw, sd, iv, wf⟩ := d
  dsimp only at huw hiw hsd
  subst huw hiw hsd
  have hs : ∀ a, ScatterDims.start (⟨[0], [0], [0], iv, wf⟩ : ScatterDims ⟨2, ![1, N]⟩ ⟨1, ![1]⟩ ⟨1, ![N]⟩) (ix1 q) idx a = 0 := fun a => by
    unfold ScatterDims.start
    split
    · rw [hidx]; exact BitVec.toInt_zero
    · rfl
  have hw : ∀ a, ScatterDims.window (⟨[0], [0], [0], iv, wf⟩ : ScatterDims ⟨2, ![1, N]⟩ ⟨1, ![1]⟩ ⟨1, ![N]⟩) (ix1 q) a
      = (ix2 (0 : Fin 1) q a).val := fun a => by
    match a with
    | ⟨0, _⟩ => rfl
    | ⟨1, _⟩ => rfl
  unfold ScatterDims.resultIdx?
  rw [dif_pos (fun a => by rw [hs, hw]; have := (ix2 (0 : Fin 1) q a).isLt; constructor <;> omega)]
  refine congrArg some (funext fun a => Fin.ext ?_)
  simp only [hs, hw]; omega

/-- So the whole-window overwrite is the update: `zeros.at[:a, :b].set(u) = u` when `u` has the operand's shape. -/
theorem scatter_whole2 {α : Type} {dm : Fin 2 → Nat} {si : Shape} {w : Nat} (d : ScatterDims ⟨2, dm⟩ si ⟨2, dm⟩)
    (huw : d.updateWindowDims = [0, 1]) (hiw : d.insertedWindowDims = []) (hsd : d.scatterDimsToOperandDims = [])
    (x : (⟨2, dm⟩ : Shape).Idx → α) (idx : IVec si w) (upd : (⟨2, dm⟩ : Shape).Idx → α) :
    Host.scatter d (fun _ b => b) x idx upd = upd :=
  funext fun j => scatter_set_apply d x idx upd id Function.injective_id (resultIdx_whole2 d huw hiw hsd idx) j

/-- And the one-row overwrite at row zero reads, at `(0, q)`, the update at `q`. -/
theorem scatter_row0_apply {α : Type} {N : Nat} {w : Nat} (d : ScatterDims ⟨2, ![1, N]⟩ ⟨1, ![1]⟩ ⟨1, ![N]⟩)
    (huw : d.updateWindowDims = [0]) (hiw : d.insertedWindowDims = [0]) (hsd : d.scatterDimsToOperandDims = [0])
    (x : (⟨2, ![1, N]⟩ : Shape).Idx → α) (idx : IVec ⟨1, ![1]⟩ w) (hidx : ∀ k, idx k = 0#w)
    (upd : (⟨1, ![N]⟩ : Shape).Idx → α) (q : Fin N) :
    Host.scatter d (fun _ b => b) x idx upd (ix2 (0 : Fin 1) q) = upd (ix1 q) :=
  scatter_set_apply d x idx upd (fun j => ix2 (0 : Fin 1) (j 0))
    (fun a b hab => funext fun c => by
      match c with
      | ⟨0, _⟩ => exact congrFun hab 1)
    (fun j => by rw [eq_ix1 j]; exact resultIdx_row0 d huw hiw hsd idx hidx (j 0)) (ix1 q)

end Idealize.ShloMosaic.ScatterSet
-- ==== Proof.RefHost.lean ====
/-
  What the one-product program stages before its launch, read at an index.

  Before the launch the host packs the operands:
    * the left operand is `zeros.at[:8192, :2048].set([y | z])` — an overwrite of the whole array, so it IS [y | z]:
      columns 0 … 1023 are y's, columns 1024 … 2047 are z's;
    * the weight is `zeros.at[:2048, :1024].set([Wy | Wz]ᵀ)` — again the whole array: row k < 1024 is column k of Wy,
      row 1024 + k is column k of Wz;
    * the bias row is `zeros(1, 1024).at[0, :].set(bias)`: its entry (0, q) is the bias at q.
-/
import proofs.«179190_g2000404403435024_pallasbulk_1094_12_alg».proof.Proof.Gen.ReferenceIdeal.Frame
import proofs.«179190_g2000404403435024_pallasbulk_1094_12_alg».proof.Proof.LibScatterSet
import proofs.«179190_g2000404403435024_pallasbulk_1094_12_alg».proof.Proof.Spec
import Idealize.ShloMosaic.Lib.Pipeline.Value
import Idealize.ShloMosaic.Lib.StableHlo.Run

noncomputable section

namespace Cert.ReferenceIdeal.Hand

open Cert.ReferenceIdeal Cert.ReferenceIdeal.Gen Idealize.ShloMosaic Idealize.ShloMosaic.TcCoe
open Idealize.ShloMosaic.ValueIdx Idealize.SL.Sem Idealize.ShloMosaic.StableHlo Cert.TwoLinear

variable (m : (ℓ : Loc nD τ sig) → Buf (Elt Ideal) ℓ)

/-- The packed left operand is y and z side by side along the columns. -/
theorem packed_left (c : Dev nD) :
    (V m c main_v9 : Vec Ideal S8192x2048 .f32)
      = concatenate S8192x2048 1 [⟨S8192x1024, (m ((c : Thread nD τ).loc main_arg0) : Vec Ideal S8192x1024 .f32)⟩,
          ⟨S8192x1024, (m ((c : Thread nD τ).loc main_arg1) : Vec Ideal S8192x1024 .f32)⟩]
          concatenates_S8192x1024_S8192x1024_S8192x2048_d1 := by
  dsimp only [Gen.V, Gen.hostOps0]
  after_results
  exact ScatterSet.scatter_whole2 scatter_S8192x2048_S0_S8192x2048_01_n_n_0 rfl rfl rfl _ _ _

/-- The packed weight is the transpose of Wy and Wz side by side along the columns. -/
theorem packed_weight (c : Dev nD) :
    (V m c main_v4 : Vec Ideal S2048x1024 .f32)
      = transpose S2048x1024 [1, 0]
          (concatenate S1024x2048 1 [⟨S1024x1024, (m ((c : Thread nD τ).loc main_arg2) : Vec Ideal S1024x1024 .f32)⟩,
            ⟨S1024x1024, (m ((c : Thread nD τ).loc main_arg3) : Vec Ideal S1024x1024 .f32)⟩]
            concatenates_S1024x1024_S1024x1024_S1024x2048_d1)
          transposes_S1024x2048_S2048x1024_1_0 := by
  dsimp only [Gen.V, Gen.hostOps0]
  after_results
  exact ScatterSet.scatter_whole2 scatter_S2048x1024_S0_S2048x1024_01_n_n_0 rfl rfl rfl _ _ _

/-- Column k < 1024 of the packed left operand is column k of y. -/
theorem left_lo (c : Dev nD) (r : Fin 8192) (k : Fin 1024) :
    (V m c main_v9 : Vec Ideal S8192x2048 .f32) (ix2 r (lo k))
      = (m ((c : Thread nD τ).loc main_arg0) : Vec Ideal S8192x1024 .f32) (ix2 r k) := by
  rw [packed_left]
  refine concatenate_pair_apply_left (s₁ := S8192x1024) (s₂ := S8192x1024) 1 _ _ _ (ix2 r (lo k)) rfl
    (ix2 r k : S8192x1024.Idx) (fun b => ?_)
  match b with
  | ⟨0, _⟩ => rfl
  | ⟨1, _⟩ => rfl

/-- Column 1024 + k of the packed left operand is column k of z. -/
theorem left_hi (c : Dev nD) (r : Fin 8192) (k : Fin 1024) :
    (V m c main_v9 : Vec Ideal S8192x2048 .f32) (ix2 r (hi k))
      = (m ((c : Thread nD τ).loc main_arg1) : Vec Ideal S8192x1024 .f32) (ix2 r k) := by
  rw [packed_left]
  refine concatenate_pair_apply_right (s₁ := S8192x1024) (s₂ := S8192x1024) 1 _ _ _ (ix2 r (hi k)) rfl rfl
    (ix2 r k : S8192x1024.Idx) (fun b hb => ?_) ?_
  · match b with
    | ⟨0, _⟩ => rfl
    | ⟨1, _⟩ => exact absurd rfl hb
  · show k.val + 1024 = k.val + 1024
    rfl

/-- Row k < 1024 of the packed weight is column k of Wy. -/
theorem weight_lo (c : Dev nD) (k q : Fin 1024) :
    (V m c main_v4 : Vec Ideal S2048x1024 .f32) (ix2 (lo k) q)
      = (m ((c : Thread nD τ).loc main_arg2) : Vec Ideal S1024x1024 .f32) (ix2 q k) := by
  rw [packed_weight]
  refine (transpose_apply [1, 0] _ _ (ix2 (lo k) q) (ix2 q (lo k)) (fun b => ?_)).trans ?_
  · match b with
    | ⟨0, _⟩ => rfl
    | ⟨1, _⟩ => rfl
  · refine concatenate_pair_apply_left (s₁ := S1024x1024) (s₂ := S1024x1024) 1 _ _ _ (ix2 q (lo k)) rfl
      (ix2 q k : S1024x1024.Idx) (fun b => ?_)
    match b with
    | ⟨0, _⟩ => rfl
    | ⟨1, _⟩ => rfl

/-- Row 1024 + k of the packed weight is column k of Wz. -/
theorem weight_hi (c : Dev nD) (k q : Fin 1024) :
    (V m c main_v4 : Vec Ideal S2048x1024 .f32) (ix2 (hi k) q)
      = (m ((c : Thread nD τ).loc main_arg3) : Vec Ideal S1024x1024 .f32) (ix2 q k) := by
  rw [packed_weight]
  refine (transpose_apply [1, 0] _ _ (ix2 (hi k) q) (ix2 q (hi k)) (fun b => ?_)).trans ?_
  · match b with
    | ⟨0, _⟩ => rfl
    | ⟨1, _⟩ => rfl
  · refine concatenate_pair_apply_right (s₁ := S1024x1024) (s₂ := S1024x1024) 1 _ _ _ (ix2 q (hi k)) rfl rfl
      (ix2 q k : S1024x1024.Idx) (fun b hb => ?_) ?_
    · match b with
      | ⟨0, _⟩ => rfl
      | ⟨1, _⟩ => exact absurd rfl hb
    · show k.val + 1024 = k.val + 1024
      rfl

/-- Entry (0, q) of the packed bias row is the bias at q. -/
theorem bias_row (c : Dev nD) (q : Fin 1024) :
    (V m c main_v7 : Vec Ideal S1x1024 .f32) (ix2 (0 : Fin 1) q)
      = (m ((c : Thread nD τ).loc main_arg4) : Vec Ideal S1024 .f32) (ix1 q) := by
  have e : (V m c main_v7 : Vec Ideal S1x1024 .f32)
      = Host.scatter scatter_S1x1024_S1_S1024_0_0_0_0 (fun _ b => b)
          (broadcastInDim S1x1024 ![] bcast_S_S1x1024 (constant (F := Ideal) S_ .f32 0x00000000#32))
          (broadcastInDim S1 ![] bcast_S_S1 (constantI S_ 32 0#32))
          (m ((c : Thread nD τ).loc main_arg4) : Vec Ideal S1024 .f32) := by
    dsimp only [Gen.V, Gen.hostOps0]; after_results
  rw [e]
  exact ScatterSet.scatter_row0_apply scatter_S1x1024_S1_S1024_0_0_0_0 rfl rfl rfl _ _ (fun _ => rfl) _ q

end Cert.ReferenceIdeal.Hand

end
-- ==== Proof.RefPoint.lean ====
/-
  What the one-product program's body computes at one grid point, as entries of `y·Wyᵀ + z·Wzᵀ + bias`.

  Point t reads rows 256·t … 256·t + 255 of the packed left operand [y | z], the whole packed weight [Wy | Wz]ᵀ and
  the packed bias row.  Entry (p, q) of what it computes is the length-2048 dot product of row 256·t + p of [y | z]
  with row q of [Wy | Wz], plus the bias at q; the first 1024 terms are y's row against Wy's, the last 1024 are z's
  row against Wz's.
-/
import proofs.«179190_g2000404403435024_pallasbulk_1094_12_alg».proof.Proof.Gen.ReferenceIdeal.Frame
import proofs.«179190_g2000404403435024_pallasbulk_1094_12_alg».proof.Proof.RefBlock
import proofs.«179190_g2000404403435024_pallasbulk_1094_12_alg».proof.Proof.RefHost
import proofs.«179190_g2000404403435024_pallasbulk_1094_12_alg».proof.Proof.Spec
import Idealize.ShloMosaic.Lib.Pipeline.Value

noncomputable section

open scoped BigOperators

namespace Cert.ReferenceIdeal.Hand

open Cert.ReferenceIdeal Cert.ReferenceIdeal.Gen Idealize.ShloMosaic Idealize.ShloMosaic.TcCoe
open Idealize.ShloMosaic.ValueIdx Idealize.SL.Sem Cert.TwoLinear
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result: `y·Wyᵀ + z·Wzᵀ + bias` of the argument arrays as launched. -/
abbrev result (c : Dev nD) : Vec Ideal S8192x1024 .f32 :=
  twoLinear (m ((c : Thread nD τ).loc main_arg0)) (m ((c : Thread nD τ).loc main_arg1))
    (m ((c : Thread nD τ).loc main_arg2)) (m ((c : Thread nD τ).loc main_arg3)) (m ((c : Thread nD τ).loc main_arg4))

/-- The printed index maps over the grid: the row-blocked windows (the packed left operand, the result) are at
    block (t, 0), the resident ones (the packed weight, the bias row) at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of a 8192 × 2048 array is row 256·t + p of the array. -/
theorem read_rows (A : Vec Ideal S8192x2048 .f32) (t : Fin cfg0.N) (p : Fin 256) (k : Fin 2048) (r : Fin 8192)
    (hr : r.val = t.val * 256 + p.val) :
    (((cfg0.win 0).blk t).view.read (Elt Ideal) A : Vec Ideal S256x2048 .f32) (ix2 p k) = A (ix2 r k) := by
  obtain ⟨e0, e1, -⟩ := idx_facts t
  rw [View.read_apply]
  refine congrArg A (funext fun a => Fin.ext ?_)
  match a with
  | ⟨0, _⟩ => show win0_0.index t (0 : Fin 2) * 256 + 1 * p.val = r.val; rw [e0, hr]; omega
  | ⟨1, _⟩ => show win0_0.index t (1 : Fin 2) * 2048 + 1 * k.val = k.val; rw [e1]; omega

/-- Point t's block of the resident 2048 × 1024 array is the array. -/
theorem read_weight (A : Vec Ideal S2048x1024 .f32) (t : Fin cfg0.N) (k : Fin 2048) (q : Fin 1024) :
    (((cfg0.win 1).blk t).view.read (Elt Ideal) A : Vec Ideal S2048x1024 .f32) (ix2 k q) = A (ix2 k q) := by
  obtain ⟨-, -, e0, e1, -⟩ := idx_facts t
  rw [View.read_apply]
  refine congrArg A (funext fun a => Fin.ext ?_)
  match a with
  | ⟨0, _⟩ => show win0_1.index t (0 : Fin 2) * 2048 + 1 * k.val = k.val; rw [e0]; omega
  | ⟨1, _⟩ => show win0_1.index t (1 : Fin 2) * 1024 + 1 * q.val = q.val; rw [e1]; omega

/-- Point t's block of the resident 1 × 1024 row is the row. -/
theorem read_bias (A : Vec Ideal S1x1024 .f32) (t : Fin cfg0.N) (q : Fin 1024) :
    (((cfg0.win 2).blk t).view.read (Elt Ideal) A : Vec Ideal S1x1024 .f32) (ix2 (0 : Fin 1) q) = A (ix2 (0 : Fin 1) q) := by
  obtain ⟨-, -, -, -, e0, e1, -⟩ := idx_facts t
  rw [View.read_apply]
  refine congrArg A (funext fun a => Fin.ext ?_)
  match a with
  | ⟨0, _⟩ => show win0_2.index t (0 : Fin 2) * 1 + 1 * 0 = 0; rw [e0]
  | ⟨1, _⟩ => show win0_2.index t (1 : Fin 2) * 1024 + 1 * q.val = q.val; rw [e1]; omega

/-- Entry (p, k) of the left block at point t is entry (256·t + p, k) of the packed left operand. -/
theorem xblk_apply (c : Dev nD) (t : Fin cfg0.N) (p : Fin 256) (k : Fin 2048) (r : Fin 8192) (hr : r.val = t.val * 256 + p.val) :
    (iblk m c 0 t : Vec Ideal S256x2048 .f32) (ix2 p k) = (V m c main_v9 : Vec Ideal S8192x2048 .f32) (ix2 r k) :=
  read_rows (V m c main_v9) t p k r hr

/-- The weight block at every point is the packed weight. -/
theorem wblk_apply (c : Dev nD) (t : Fin cfg0.N) (k : Fin 2048) (q : Fin 1024) :
    (iblk m c 1 t : Vec Ideal S2048x1024 .f32) (ix2 k q) = (V m c main_v4 : Vec Ideal S2048x1024 .f32) (ix2 k q) :=
  read_weight (V m c main_v4) t k q

/-- The bias block at every point is the packed bias row. -/
theorem bblk_apply (c : Dev nD) (t : Fin cfg0.N) (q : Fin 1024) :
    (iblk m c 2 t : Vec Ideal S1x1024 .f32) (ix2 (0 : Fin 1) q) = (V m c main_v7 : Vec Ideal S1x1024 .f32) (ix2 (0 : Fin 1) q) :=
  read_bias (V m c main_v7) t q

/-- Entry (p, q) of what the body computes at point t is entry (256·t + p, q) of the result: the length-2048 dot
    product splits into its y·Wy half and its z·Wz half. -/
theorem point_apply (c : Dev nD) (t : Fin cfg0.N) (p : Fin 256) (q : Fin 1024) (r : Fin 8192) (hr : r.val = t.val * 256 + p.val) :
    k0_pay1 (F := Ideal) (iblk m c 0 t) (iblk m c 1 t) (iblk m c 2 t) (ix2 p q) = result m c (ix2 r q) := by
  refine (pay_apply (iblk m c 0 t) (iblk m c 1 t) (iblk m c 2 t) p q).trans ?_
  unfold result twoLinear
  refine congrArg₂ (· + ·) ?_ ((bblk_apply m c t q).trans (bias_row m c q))
  refine (sum_halves _).trans ?_
  refine congrArg₂ (· + ·) (Finset.sum_congr rfl fun k _ => ?_) (Finset.sum_congr rfl fun k _ => ?_)
  · exact congrArg₂ (· * ·) ((xblk_apply m c t p (lo k) r hr).trans (left_lo m c r k))
      ((wblk_apply m c t (lo k) q).trans (weight_lo m c k q))
  · exact congrArg₂ (· * ·) ((xblk_apply m c t p (hi k) r hr).trans (left_hi m c r k))
      ((wblk_apply m c t (hi k) q).trans (weight_hi m c k q))

end Cert.ReferenceIdeal.Hand

end
-- ==== Proof.RefArray.lean ====
/-
  The one-product program's result array, as one function of its argument arrays.

  The grid has 32 points; point t reads rows 256·t … 256·t + 255 of the packed left operand [y | z], the whole packed
  weight [Wy | Wz]ᵀ and the packed bias row, and writes rows 256·t … 256·t + 255 of the result.  Entry (p, q) of what
  point t writes is the length-2048 dot product of row 256·t + p of [y | z] with row q of [Wy | Wz], plus the bias at
  q; the first 1024 terms are y's row against Wy's, the last 1024 are z's row against Wz's, so this is entry
  (256·t + p, q) of y·Wyᵀ + z·Wzᵀ + bias.  The 32 row blocks tile the result.
-/
import proofs.«179190_g2000404403435024_pallasbulk_1094_12_alg».proof.Proof.Gen.ReferenceIdeal.Value
import proofs.«179190_g2000404403435024_pallasbulk_1094_12_alg».proof.Proof.RefPoint
import proofs.«179190_g2000404403435024_pallasbulk_1094_12_alg».proof.Proof.Spec
import Idealize.ShloMosaic.Lib.Pipeline.Value

noncomputable section

open scoped BigOperators

namespace Cert.ReferenceIdeal.Hand

open Cert.ReferenceIdeal Cert.ReferenceIdeal.Gen Cert.ReferenceIdeal.Value Idealize.ShloMosaic Idealize.ShloMosaic.TcCoe
open Idealize.ShloMosaic.ValueIdx Idealize.SL.Sem Cert.TwoLinear
open Idealize.ShloMosaic.Pipeline (Dat)

variable (m : (ℓ : Loc nD τ sig) → Buf (Elt Ideal) ℓ) (ρ : Dev nD → PrngReg)

/-- What point t writes back is block t of the result. -/
theorem flushed_eq (c : Dev nD) (t : Fin cfg0.N) :
    (dats m 0 c).flushed 3 t = ((cfg0.win 3).blk t).view.read (Elt Ideal) (result m c) := by
  obtain ⟨-, -, -, -, -, -, e0, e1⟩ := idx_facts t
  have hN : cfg0.N = 32 := N_0
  rw [flushed3]
  unfold out0_3
  rw [View.canon_unit_zero hz]
  simp only [View.ld_unit_zero (S := S256x2048) hz, View.ld_unit_zero (S := S2048x1024) hz, View.ld_unit_zero (S := S1x1024) hz]
  funext j
  have hp : (j 0).val < 256 := (j 0).isLt
  have hq : (j 1).val < 1024 := (j 1).isLt
  have ht : t.val < 32 := hN ▸ t.isLt
  show k0_pay1 (F := Ideal) (iblk m c 0 t) (iblk m c 1 t) (iblk m c 2 t) j
    = result m c (((cfg0.win 3).blk t).view.emb j)
  have hj : (j : S256x1024.Idx) = ix2 (⟨(j 0).val, hp⟩ : Fin 256) (⟨(j 1).val, hq⟩ : Fin 1024) :=
    funext fun a => by
      match a with
      | ⟨0, _⟩ => rfl
      | ⟨1, _⟩ => rfl
  have he : (((cfg0.win 3).blk t).view.emb j : S8192x1024.Idx)
      = ix2 (⟨t.val * 256 + (j 0).val, by omega⟩ : Fin 8192) (⟨(j 1).val, hq⟩ : Fin 1024) :=
    funext fun a => Fin.ext (by
      match a with
      | ⟨0, _⟩ => show win0_3.index t (0 : Fin 2) * 256 + 1 * (j 0).val = t.val * 256 + (j 0).val; rw [e0]; omega
      | ⟨1, _⟩ => show win0_3.index t (1 : Fin 2) * 1024 + 1 * (j 1).val = (j 1).val; rw [e1]; omega)
  rw [he]
  refine Eq.trans ?_ (point_apply m c t ⟨(j 0).val, hp⟩ ⟨(j 1).val, hq⟩ ⟨t.val * 256 + (j 0).val, by omega⟩ rfl)
  exact congrArg (k0_pay1 (F := Ideal) (iblk m c 0 t) (iblk m c 1 t) (iblk m c 2 t)) hj

/-- An index of the result is in point t's block iff its row lies in rows 256·t … 256·t + 255. -/
theorem mem_blk (t : Fin cfg0.N) (i : S8192x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v10).slice (win0_3.rect t)).set ↔ _
  rw [View.set_slice_whole, Rect.mem_set_unit]
  exact Iff.rfl

/-- Every index of the result is in the block of the point its row belongs to. -/
theorem cover (i : S8192x1024.Idx) :
    ∃ t : Fin cfg0.N, (cfg0.win 3).flush t = true ∧ i ∈ ((cfg0.win 3).blk t).view.set := by
  have hN : cfg0.N = 32 := N_0
  have hi0 : (i 0).val < 8192 := (i 0).isLt
  have hi1 : (i 1).val < 1024 := (i 1).isLt
  let t : Fin cfg0.N := ⟨(i 0).val / 256, by rw [hN]; omega⟩
  obtain ⟨-, -, -, -, -, -, e0, e1⟩ := idx_facts t
  have ht : t.val = (i 0).val / 256 := rfl
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [e0, ht]; omega
  | ⟨1, _⟩ =>
    show win0_3.index t (1 : Fin 2) * 1024 ≤ (i 1).val ∧ (i 1).val < win0_3.index t (1 : Fin 2) * 1024 + 1024
    rw [e1]; omega

/-- The result array after the run is `y·Wyᵀ + z·Wzᵀ + bias` of the arguments. -/
theorem final (c : Dev nD) : (dats m 0 c).arrAt 3 cfg0.N = result m c :=
  (dats m 0 c).arrAt_eq_of_cover 3 (result m c) (fun t _ => flushed_eq m c t) cover

/-- The run, read: the result array at that function of the arguments, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.ReferenceIdeal.Hand

end
-- ==== Proof.lean ====
/-
  Two arrangements of one fused pair of linear maps compute the same array over the extended reals.

  Both programs compute, for y, z of shape 8192 × 1024, weights Wy, Wz of shape 1024 × 1024 and a bias of length 1024,

      out(i, j) = (Σ_{k<1024} y(i,k)·Wy(j,k) + Σ_{k<1024} z(i,k)·Wz(j,k)) + bias(j).

  The first forms the two products separately, 1024 rows at a time (the narrowing of the operands to bf16 is the
  identity on extended reals), and adds them.  The second lays [y | z] and [Wy | Wz]ᵀ out on the host — each packing is
  an overwrite of a whole zero array, so nothing of the zeros remains — and forms one product of contraction length
  2048, 256 rows at a time.  Splitting that sum into its first and last 1024 terms gives the first program's two
  sums; only associativity and commutativity of addition are used, so the finiteness of the inputs is not needed
  for the values.  Each program's run, with its result array named as a function of the argument arrays, is in
  Proof/KernelArray.lean and Proof/RefArray.lean; both name the same function (Proof/Spec.lean).
-/
import proofs.«179190_g2000404403435024_pallasbulk_1094_12_alg».proof.Defs
import proofs.«179190_g2000404403435024_pallasbulk_1094_12_alg».proof.Proof.Gen.Kernel
import proofs.«179190_g2000404403435024_pallasbulk_1094_12_alg».proof.Proof.Gen.Kernel.Frame
import proofs.«179190_g2000404403435024_pallasbulk_1094_12_alg».proof.Proof.Gen.KernelIdeal
import proofs.«179190_g2000404403435024_pallasbulk_1094_12_alg».proof.Proof.Gen.KernelIdeal.Frame
import proofs.«179190_g2000404403435024_pallasbulk_1094_12_alg».proof.Proof.Gen.ReferenceIdeal
import proofs.«179190_g2000404403435024_pallasbulk_1094_12_alg».proof.Proof.Gen.ReferenceIdeal.Frame
import proofs.«179190_g2000404403435024_pallasbulk_1094_12_alg».proof.Proof.Gen.Pre_finite_inputs
import proofs.«179190_g2000404403435024_pallasbulk_1094_12_alg».proof.Proof.KernelArray
import proofs.«179190_g2000404403435024_pallasbulk_1094_12_alg».proof.Proof.RefArray
import Idealize.ShloMosaic.Adequacy
import Idealize.ShloMosaic.Init

noncomputable section

namespace Cert.Proof

open Idealize.ShloMosaic Idealize.SL.Sem

/-- The word-level program runs and leaves its arguments as they were. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- And the one-product program. -/
theorem frame_referenceIdeal : Cert.frame_ReferenceIdeal := fun m ρ _ => Cert.ReferenceIdeal.Gen.frame m ρ

/-- From memories that agree on the five arguments both programs end with the result array at
    `y·Wyᵀ + z·Wzᵀ + bias` of those arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4⟩ := hagree c
  show Cert.TwoLinear.twoLinear _ _ _ _ _ = Cert.TwoLinear.twoLinear _ _ _ _ _
  rw [h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
